-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S100000x128 .f32) (main_arg1 : IVec S640000 32) (main_arg2 : IVec S640000 32) (main_arg3 : FVec F S3x128x128 .f32) (main_arg4 : FVec F S3x128x128 .f32) (main_arg5 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S100000x128 : Shape := ⟨2, ![100000, 128]⟩
abbrev S640000 : Shape := ⟨1, ![640000]⟩
abbrev S3x128x128 : Shape := ⟨3, ![3, 128, 128]⟩
abbrev S3x128 : Shape := ⟨2, ![3, 128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 88
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S_, .f32⟩
  | .hbm, ⟨7, _⟩ => ⟨S640000, .f32⟩
  | .hbm, ⟨8, _⟩ => ⟨S_, .f32⟩
  | .hbm, ⟨9, _⟩ => ⟨S100000, .f32⟩
  | .hbm, ⟨10, _⟩ => ⟨S640000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S100000x128, .f32⟩
  | .hbm, ⟨30, _⟩ => ⟨S640000x1, .i32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128x128, .f32⟩
  | .hbm, ⟨35, _⟩ => ⟨S128x128, .f32⟩
  | .hbm, ⟨36, _⟩ => ⟨S1x128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .f32⟩
  | .hbm, ⟨52, _⟩ => ⟨S100000x128, .f32⟩
  | .hbm, ⟨53, _⟩ => ⟨S640000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128x128, .f32⟩
  | .hbm, ⟨58, _⟩ => ⟨S128x128, .f32⟩
  | .hbm, ⟨59, _⟩ => ⟨S1x128x128, .f32⟩
  | .hbm, ⟨60, _⟩ => ⟨S128x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S640000, .i32⟩
  | .hbm, ⟨67, _⟩ => ⟨S640000, .i1⟩
  | .hbm, ⟨68, _⟩ => ⟨S_, .i32⟩
  | .hbm, ⟨69, _⟩ => ⟨S640000, .i32⟩
  | .hbm, ⟨70, _⟩ => ⟨S640000, .i32⟩
  | .hbm, ⟨71, _⟩ => ⟨S640000, .i32⟩
  | .hbm, ⟨72, _⟩ => ⟨S640000x1, .i32⟩
  | .hbm, ⟨73, _⟩ => ⟨S640000x128, .f32⟩
  | .hbm, ⟨74, _⟩ => ⟨S_, .f32⟩
  | .hbm, ⟨75, _⟩ => ⟨S100000x128, .f32⟩
  | .hbm, ⟨76, _⟩ => ⟨S640000x1, .i32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128x128, .f32⟩
  | .hbm, ⟨81, _⟩ => ⟨S128x128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S640000 : Shape := ⟨1, ![640000]⟩
abbrev S3x128x128 : Shape := ⟨3, ![3, 128, 128]⟩
abbrev S3x128 : Shape := ⟨2, ![3, 128]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S_, .f32⟩
  | .hbm, ⟨7, _⟩ => ⟨S640000, .f32⟩
  | .hbm, ⟨8, _⟩ => ⟨S_, .f32⟩
  | .hbm, ⟨9, _⟩ => ⟨S100000, .f32⟩
  | .hbm, ⟨10, _⟩ => ⟨S640000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S100000x128, .f32⟩
  | .hbm, ⟨29, _⟩ => ⟨S640000x1, .i32⟩
  | .hbm, ⟨30, _⟩ => ⟨S100000x128, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x128x128, .f32⟩
  | .hbm, ⟨35, _⟩ => ⟨S128x128, .f32⟩
  | .hbm, ⟨36, _⟩ => ⟨S100000x128, .f32⟩
  | .hbm, ⟨37, _⟩ => ⟨S1x128x128, .f32⟩
  | .hbm, ⟨38, _⟩ => ⟨S128x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S_, .f32⟩
  | .hbm, ⟨59, _⟩ => ⟨S100000x128, .f32⟩
  | .hbm, ⟨60, _⟩ => ⟨S640000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128x128, .f32⟩
  | .hbm, ⟨66, _⟩ => ⟨S128x128, .f32⟩
  | .hbm, ⟨67, _⟩ => ⟨S100000x128, .f32⟩
  | .hbm, ⟨68, _⟩ => ⟨S1x128x128, .f32⟩
  | .hbm, ⟨69, _⟩ => ⟨S128x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S640000, .i32⟩
  | .hbm, ⟨82, _⟩ => ⟨S640000, .i1⟩
  | .hbm, ⟨83, _⟩ => ⟨S_, .i32⟩
  | .hbm, ⟨84, _⟩ => ⟨S640000, .i32⟩
  | .hbm, ⟨85, _⟩ => ⟨S640000, .i32⟩
  | .hbm, ⟨86, _⟩ => ⟨S640000, .i32⟩
  | .hbm, ⟨87, _⟩ => ⟨S640000x1, .i32⟩
  | .hbm, ⟨88, _⟩ => ⟨S640000x128, .f32⟩
  | .hbm, ⟨89, _⟩ => ⟨S_, .f32⟩
  | .hbm, ⟨90, _⟩ => ⟨S100000x128, .f32⟩
  | .hbm, ⟨91, _⟩ => ⟨S640000x1, .i32⟩
  | .hbm, ⟨92, _⟩ => ⟨S100000x128, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S1x128x128, .f32⟩
  | .hbm, ⟨97, _⟩ => ⟨S128x128, .f32⟩
  | .hbm, ⟨98, _⟩ => ⟨S100000x128, .f32⟩
  | .hbm, ⟨99, _⟩ => ⟨S1x128x128, .f32⟩
  | .hbm, ⟨100, _⟩ => ⟨S128x128, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S128, .f32⟩
  | .hbm, ⟨105, _⟩ => ⟨S1x128, .f32⟩
  | .hbm, ⟨106, _⟩ => ⟨S100000x128, .f32⟩
  | .hbm, ⟨107, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_call1_cst : Ref sig .tc := ⟨.hbm, 77, rfl⟩
abbrev main_call1_v0 : Ref sig .tc := ⟨.hbm, 78, rfl⟩
abbrev main_v59 : Ref sig .tc := ⟨.hbm, 79, rfl⟩
abbrev main_c_8 : Ref sig .tc := ⟨.hbm, 80, rfl⟩
abbrev main_v60 : Ref sig .tc := ⟨.hbm, 81, rfl⟩
abbrev main_v61 : Ref sig .tc := ⟨.hbm, 82, rfl⟩
abbrev main_c_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The kernel program's run, with the result array named.

  The program is three launches of a row-block kernel with stretches of host operations before each.  Its run ends
  with every buffer the launches and the host operations leave outside the kernels' scratch at the contents obtained
  by folding, in program order, each host stretch's operations and each launch's write-backs over the launch memory;
  the result buffer is one of them, and the six argument arrays are read back unchanged.  This is the frame run's own
  argument with one more buffer read off the final state.
-/
import proofs.«123210_j4947802325460_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the folded
    contents `W6` and the argument arrays as launched. -/
theorem run : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.KPay.lean ====
/-
  What one grid point computes, read at one entry of its block.

  The body of each of the three kernels loads a 5000-row block of the node features and of the aggregated neighbour
  features, the two 128 x 128 weight matrices and the bias row, narrows the four matrices to bfloat16 (no change of
  value on the extended reals), forms the two matrix products into zero accumulators, adds them, adds the bias row to
  every row, and, in the first two kernels, clamps at zero.  At row `r` and column `q` of the block that is

      sum over k of x0 (r, k) * x2 (k, q)  +  sum over k of x1 (r, k) * x3 (k, q)  +  x4 (0, q),

  clamped or not: a product into a zero accumulator is the plain sum of products, a cast to the same shape is the
  identity, and the bias row stretched over the rows reads its entry `q`.
-/
import proofs.«123210_j4947802325460_1_alg».proof.Proof.Gen.KernelIdeal.Skeleton
import proofs.«123210_j4947802325460_1_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.Body

open Idealize.ShloMosaic Idealize.ShloMosaic.ValueIdx Cert.KernelIdeal Cert.KernelIdeal.Gen

/-- The block product into a zero accumulator at `(r, q)`. -/
theorem blockDot_apply {φ₁ φ₂ : FTy} (lhs : FVec Ideal S5000x128 φ₁) (rhs : FVec Ideal S128x128 φ₂) (r : Fin 5000) (q : Fin 128) :
    matmul dot_S5000x128_S128x128_S5000x128_1_0_0_1_n_n none lhs rhs (constant S5000x128 .f32 0x00000000#32) (ix2 r q)
      = ∑ k : Fin 128, lhs (ix2 r k) * rhs (ix2 k q) :=
  Cert.LibPlainDot.matmul_zero_apply (R := 5000) (K := 128) (C := 128)
    dot_S5000x128_S128x128_S5000x128_1_0_0_1_n_n.wf none lhs rhs r q

/-- The bias row stretched over the 5000 rows reads its entry `q`. -/
theorem biasRow_apply (x4 : Vec Ideal S1x128 .f32) (r : Fin 5000) (q : Fin 128) :
    broadcastTo S5000x128 (shapeCast S1x128 x4 shapeCasts_S1x128_S1x128) broadcasts_S1x128_S5000x128 (ix2 r q)
      = x4 (ix2 (0 : Fin 1) q) := by
  rw [broadcastTo_1b_ab_apply, shapeCast_self]

/-- The first kernel's stored value at `(r, q)`. -/
theorem pay0_apply (x0 x1 : Vec Ideal S5000x128 .f32) (x2 x3 : Vec Ideal S128x128 .f32) (x4 : Vec Ideal S1x128 .f32)
    (r : Fin 5000) (q : Fin 128) :
    k0_pay1 (F := Ideal) x0 x1 x2 x3 x4 (ix2 r q)
      = max ((∑ k : Fin 128, x0 (ix2 r k) * x2 (ix2 k q)) + (∑ k : Fin 128, x1 (ix2 r k) * x3 (ix2 k q))
          + x4 (ix2 (0 : Fin 1) q)) (Ideal.ofBits .f32 0x00000000#32) := by
  unfold k0_pay1
  rw [maximumf_apply, addf_apply, addf_apply, broadcast_apply, blockDot_apply, blockDot_apply, biasRow_apply]
  simp only [truncf_apply, shapeCast_self]
  rfl

/-- The second kernel's stored value at `(r, q)`. -/
theorem pay1_apply (x0 x1 : Vec Ideal S5000x128 .f32) (x2 x3 : Vec Ideal S128x128 .f32) (x4 : Vec Ideal S1x128 .f32)
    (r : Fin 5000) (q : Fin 128) :
    k1_pay1 (F := Ideal) x0 x1 x2 x3 x4 (ix2 r q)
      = max ((∑ k : Fin 128, x0 (ix2 r k) * x2 (ix2 k q)) + (∑ k : Fin 128, x1 (ix2 r k) * x3 (ix2 k q))
          + x4 (ix2 (0 : Fin 1) q)) (Ideal.ofBits .f32 0x00000000#32) := by
  unfold k1_pay1
  rw [maximumf_apply, addf_apply, addf_apply, broadcast_apply, blockDot_apply, blockDot_apply, biasRow_apply]
  simp only [truncf_apply, shapeCast_self]
  rfl

/-- The third kernel's stored value at `(r, q)`: no clamp. -/
theorem pay2_apply (x0 x1 : Vec Ideal S5000x128 .f32) (x2 x3 : Vec Ideal S128x128 .f32) (x4 : Vec Ideal S1x128 .f32)
    (r : Fin 5000) (q : Fin 128) :
    k2_pay1 (F := Ideal) x0 x1 x2 x3 x4 (ix2 r q)
      = (∑ k : Fin 128, x0 (ix2 r k) * x2 (ix2 k q)) + (∑ k : Fin 128, x1 (ix2 r k) * x3 (ix2 k q))
          + x4 (ix2 (0 : Fin 1) q) := by
  unfold k2_pay1
  rw [addf_apply, addf_apply, blockDot_apply, blockDot_apply, biasRow_apply]
  simp only [truncf_apply, shapeCast_self]

end Cert.KernelIdeal.Body

end
-- ==== Proof.Spec.lean ====
/-
  One layer of the network, as a function of whole arrays.

  A layer takes the node features `h` (one row of 128 numbers per node), the aggregated neighbour features `n` of the
  same extents, two 128 x 128 weight matrices and a bias row, and returns, at node `p` and feature `q`,

      sum over k of h (p, k) * ws (k, q)  +  sum over k of n (p, k) * wn (k, q)  +  b (q)

  on the extended reals; the first two layers then clamp the result from below at zero.  Both programs compute this
  function: one by two matrix products over the whole array, the other block of rows by block of rows.  A row of the
  result depends only on the same row of `h` and of `n`, which is why the row blocks can be computed apart.
-/
import Idealize.ShloMosaic.PureOps.Ideal
import Idealize.ShloMosaic.Lib.ValueIdx

noncomputable section

open scoped BigOperators

namespace Cert.Sage

open Idealize.ShloMosaic Idealize.ShloMosaic.ValueIdx

/-- The layer at node `p`, feature `q`. -/
def denseAt (h n : FVec Ideal ⟨2, ![100000, 128]⟩ .f32) (ws wn : FVec Ideal ⟨2, ![128, 128]⟩ .f32)
    (b : FVec Ideal ⟨1, ![128]⟩ .f32) (p : Fin 100000) (q : Fin 128) : Ideal .f32 :=
  (∑ k : Fin 128, h (ix2 p k) * ws (ix2 k q)) + (∑ k : Fin 128, n (ix2 p k) * wn (ix2 k q)) + b (ix1 q)

/-- The layer without the clamp, as a whole array. -/
def dense (h n : FVec Ideal ⟨2, ![100000, 128]⟩ .f32) (ws wn : FVec Ideal ⟨2, ![128, 128]⟩ .f32)
    (b : FVec Ideal ⟨1, ![128]⟩ .f32) : FVec Ideal ⟨2, ![100000, 128]⟩ .f32 :=
  fun i => denseAt h n ws wn b (i 0) (i 1)

/-- The layer clamped from below at zero (the zero kept as the word both programs print). -/
def denseRelu (h n : FVec Ideal ⟨2, ![100000, 128]⟩ .f32) (ws wn : FVec Ideal ⟨2, ![128, 128]⟩ .f32)
    (b : FVec Ideal ⟨1, ![128]⟩ .f32) : FVec Ideal ⟨2, ![100000, 128]⟩ .f32 :=
  fun i => max (denseAt h n ws wn b (i 0) (i 1)) (Ideal.ofBits .f32 0x00000000#32)

theorem dense_ix2 (h n : FVec Ideal ⟨2, ![100000, 128]⟩ .f32) (ws wn : FVec Ideal ⟨2, ![128, 128]⟩ .f32)
    (b : FVec Ideal ⟨1, ![128]⟩ .f32) (p : Fin 100000) (q : Fin 128) :
    dense h n ws wn b (ix2 p q) = denseAt h n ws wn b p q := rfl

theorem denseRelu_ix2 (h n : FVec Ideal ⟨2, ![100000, 128]⟩ .f32) (ws wn : FVec Ideal ⟨2, ![128, 128]⟩ .f32)
    (b : FVec Ideal ⟨1, ![128]⟩ .f32) (p : Fin 100000) (q : Fin 128) :
    denseRelu h n ws wn b (ix2 p q) = max (denseAt h n ws wn b p q) (Ideal.ofBits .f32 0x00000000#32) := rfl

/-- A 1 x 128 array read as its one row. -/
def rowOf (v : FVec Ideal ⟨2, ![1, 128]⟩ .f32) : FVec Ideal ⟨1, ![128]⟩ .f32 :=
  fun j => v (ix2 (0 : Fin 1) (j 0))

theorem rowOf_ix1 (v : FVec Ideal ⟨2, ![1, 128]⟩ .f32) (q : Fin 128) : rowOf v (ix1 q) = v (ix2 (0 : Fin 1) q) := rfl

end Cert.Sage

end
-- ==== Proof.KReg0.lean ====
/-
  The first launch: from row blocks to the whole array.

  The launch walks the 100000 rows in 20 blocks of 5000.  At block `t` the kernel reads rows `5000 t … 5000 t + 4999`
  of the node features and of the neighbour features, the two whole weight matrices and the whole bias row, and
  writes the same rows of the result.  Entry `(r, q)` of the block it writes is the layer's value at row
  `5000 t + r`, column `q`, because a row of the layer depends only on the same row of its two row operands; the
  twenty blocks tile the array, so after the launch the result array is the layer of the arrays the launch found.
-/
import proofs.«123210_j4947802325460_1_alg».proof.Proof.Gen.KernelIdeal.Frame
import proofs.«123210_j4947802325460_1_alg».proof.Proof.KPay
import proofs.«123210_j4947802325460_1_alg».proof.Proof.Spec
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem zeroOff : (![0, 0] : Fin 2 → Nat) = fun _ => 0 := funext fun a => by fin_cases a <;> rfl

/-- One entry of a block against one entry of the layer: equal as soon as the block's two row operands hold row
    `p` of the arrays at their row `r` and its other three operands are the whole arrays. -/
theorem entry_eq (h n : FVec Ideal ⟨2, ![100000, 128]⟩ .f32) (ws wn : FVec Ideal ⟨2, ![128, 128]⟩ .f32)
    (b1 : FVec Ideal ⟨2, ![1, 128]⟩ .f32)
    (x0 x1 : Vec Ideal S5000x128 .f32) (x2 x3 : Vec Ideal S128x128 .f32) (x4 : Vec Ideal S1x128 .f32)
    (p : Fin 100000) (r : Fin 5000) (q : Fin 128)
    (h0 : ∀ k : Fin 128, x0 (ix2 r k) = h (ix2 p k)) (h1 : ∀ k : Fin 128, x1 (ix2 r k) = n (ix2 p k))
    (h2 : ∀ k : Fin 128, x2 (ix2 k q) = ws (ix2 k q)) (h3 : ∀ k : Fin 128, x3 (ix2 k q) = wn (ix2 k q))
    (h4 : x4 (ix2 (0 : Fin 1) q) = b1 (ix2 (0 : Fin 1) q)) :
    k0_pay1 (F := Ideal) x0 x1 x2 x3 x4 (ix2 r q) = denseRelu h n ws wn (rowOf b1) (ix2 p q) := by
  rw [Cert.KernelIdeal.Body.pay0_apply, denseRelu_ix2]
  unfold denseAt
  rw [rowOf_ix1, h4]
  simp only [h0, h1, h2, h3]

/-- The printed index maps over the twenty grid points: the two row operands and the result move one block down per
    point, the weights and the bias stay at block zero. -/
theorem idx_facts : ∀ t : Fin cfg0.N, t.val < 20
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the result is some point's. -/
theorem idx_onto : ∀ (q0 : Fin 20), ∃ t : Fin cfg0.N, win0_5.index t = ![q0.val, 0] :=
  (by decide +kernel : ∀ (q0 : Fin 20), ∃ t : Fin grid0.N, win0_5.index t = ![q0.val, 0])

/-- What point `t` writes back is block `t` of the layer of the arrays the launch found. -/
theorem flushed_eq (c : Dev nD) (t : Fin cfg0.N) :
    (dat0 (F := Ideal) V c).flushed 5 t = ((cfg0.win 5).blk t).view.read (Elt Ideal)
      (denseRelu (V c main_arg0) (V c main_v20) (V c main_v22) (V c main_v24) (rowOf (V c main_v27))) := by
  show (cfg0.win 5).cut (grid0.coords t) ((dat0 V c).after 5 t) = _
  rw [after0_5]
  unfold out0_5
  rw [View.canon_unit_zero zeroOff]
  simp only [View.ld_unit_zero (S := S5000x128) zeroOff, View.ld_unit_zero (S := S128x128) zeroOff,
    View.ld_unit_zero (S := S1x128) zeroOff]
  obtain ⟨ht, e00, e01, e10, e11, e20, e21, e30, e31, e40, e41, e50, e51⟩ := idx_facts t
  funext j
  obtain ⟨r, q, rfl⟩ : ∃ (r : Fin 5000) (q : Fin 128), j = ix2 r q := ⟨j 0, j 1, eq_ix2 j⟩
  have hr : r.val < 5000 := r.isLt
  have hq : q.val < 128 := q.isLt
  have hemb : ((cfg0.win 5).blk t).view.emb (ix2 r q) = ix2 (⟨t.val * 5000 + r.val, by omega⟩ : Fin 100000) q := by
    funext a; apply Fin.ext
    match a with
    | ⟨0, _⟩ => show win0_5.index t (0 : Fin 2) * 5000 + 1 * r.val = t.val * 5000 + r.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 r q)
    = denseRelu (V c main_arg0) (V c main_v20) (V c main_v22) (V c main_v24) (rowOf (V c main_v27)) (((cfg0.win 5).blk t).view.emb (ix2 r q))
  rw [hemb]
  refine entry_eq (V c main_arg0) (V c main_v20) (V c main_v22) (V c main_v24) (V c main_v27) _ _ _ _ _ _ r q ?_ ?_ ?_ ?_ ?_
  · intro k
    have hk : k.val < 128 := k.isLt
    show V c main_arg0 (((cfg0.win 0).blk t).view.emb (ix2 r k)) = V c main_arg0 (ix2 (⟨t.val * 5000 + r.val, by omega⟩ : Fin 100000) k)
    refine congrArg _ ?_
    funext a; apply Fin.ext
    match a with
    | ⟨0, _⟩ => show win0_0.index t (0 : Fin 2) * 5000 + 1 * r.val = t.val * 5000 + r.val; omega
    | ⟨1, _⟩ => show win0_0.index t (1 : Fin 2) * 128 + 1 * k.val = k.val; omega
  · intro k
    have hk : k.val < 128 := k.isLt
    show V c main_v20 (((cfg0.win 1).blk t).view.emb (ix2 r k)) = V c main_v20 (ix2 (⟨t.val * 5000 + r.val, by omega⟩ : Fin 100000) k)
    refine congrArg _ ?_
    funext a; apply Fin.ext
    match a with
    | ⟨0, _⟩ => show win0_1.index t (0 : Fin 2) * 5000 + 1 * r.val = t.val * 5000 + r.val; omega
    | ⟨1, _⟩ => show win0_1.index t (1 : Fin 2) * 128 + 1 * k.val = k.val; omega
  · intro k
    have hk : k.val < 128 := k.isLt
    show V c main_v22 (((cfg0.win 2).blk t).view.emb (ix2 k q)) = V c main_v22 (ix2 k q)
    refine congrArg _ ?_
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  · intro k
    have hk : k.val < 128 := k.isLt
    show V c main_v24 (((cfg0.win 3).blk t).view.emb (ix2 k q)) = V c main_v24 (ix2 k q)
    refine congrArg _ ?_
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  · show V c main_v27 (((cfg0.win 4).blk t).view.emb (ix2 (0 : Fin 1) q)) = V c main_v27 (ix2 (0 : Fin 1) q)
    refine congrArg _ ?_
    funext a; apply Fin.ext
    match a with
    | ⟨0, _⟩ => show win0_4.index t (0 : Fin 2) * 1 + 1 * 0 = 0; omega
    | ⟨1, _⟩ => show win0_4.index t (1 : Fin 2) * 128 + 1 * q.val = q.val; omega

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- The twenty blocks tile the result array: row `i` is in block `i / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the launch the result array is the layer of the arrays the launch found. -/
theorem final (c : Dev nD) :
    (dat0 (F := Ideal) V c).arrAt 5 cfg0.N
      = denseRelu (V c main_arg0) (V c main_v20) (V c main_v22) (V c main_v24) (rowOf (V c main_v27)) :=
  (dat0 (F := Ideal) V c).arrAt_eq_of_cover 5 _ (fun t _ => flushed_eq V c t) (covered)

end Cert.KernelIdeal.Region0

end
-- ==== Proof.KReg1.lean ====
/-
  The second launch: from row blocks to the whole array.

  The launch walks the 100000 rows in 20 blocks of 5000.  At block `t` the kernel reads rows `5000 t … 5000 t + 4999`
  of the node features and of the neighbour features, the two whole weight matrices and the whole bias row, and
  writes the same rows of the result.  Entry `(r, q)` of the block it writes is the layer's value at row
  `5000 t + r`, column `q`, because a row of the layer depends only on the same row of its two row operands; the
  twenty blocks tile the array, so after the launch the result array is the layer of the arrays the launch found.
-/
import proofs.«123210_j4947802325460_1_alg».proof.Proof.Gen.KernelIdeal.Frame
import proofs.«123210_j4947802325460_1_alg».proof.Proof.KPay
import proofs.«123210_j4947802325460_1_alg».proof.Proof.Spec
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem zeroOff : (![0, 0] : Fin 2 → Nat) = fun _ => 0 := funext fun a => by fin_cases a <;> rfl

/-- One entry of a block against one entry of the layer: equal as soon as the block's two row operands hold row
    `p` of the arrays at their row `r` and its other three operands are the whole arrays. -/
theorem entry_eq (h n : FVec Ideal ⟨2, ![100000, 128]⟩ .f32) (ws wn : FVec Ideal ⟨2, ![128, 128]⟩ .f32)
    (b1 : FVec Ideal ⟨2, ![1, 128]⟩ .f32)
    (x0 x1 : Vec Ideal S5000x128 .f32) (x2 x3 : Vec Ideal S128x128 .f32) (x4 : Vec Ideal S1x128 .f32)
    (p : Fin 100000) (r : Fin 5000) (q : Fin 128)
    (h0 : ∀ k : Fin 128, x0 (ix2 r k) = h (ix2 p k)) (h1 : ∀ k : Fin 128, x1 (ix2 r k) = n (ix2 p k))
    (h2 : ∀ k : Fin 128, x2 (ix2 k q) = ws (ix2 k q)) (h3 : ∀ k : Fin 128, x3 (ix2 k q) = wn (ix2 k q))
    (h4 : x4 (ix2 (0 : Fin 1) q) = b1 (ix2 (0 : Fin 1) q)) :
    k1_pay1 (F := Ideal) x0 x1 x2 x3 x4 (ix2 r q) = denseRelu h n ws wn (rowOf b1) (ix2 p q) := by
  rw [Cert.KernelIdeal.Body.pay1_apply, denseRelu_ix2]
  unfold denseAt
  rw [rowOf_ix1, h4]
  simp only [h0, h1, h2, h3]

/-- The printed index maps over the twenty grid points: the two row operands and the result move one block down per
    point, the weights and the bias stay at block zero. -/
theorem idx_facts : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block row of the result is some point's. -/
theorem idx_onto : ∀ (q0 : Fin 20), ∃ t : Fin cfg1.N, win1_5.index t = ![q0.val, 0] :=
  (by decide +kernel : ∀ (q0 : Fin 20), ∃ t : Fin grid1.N, win1_5.index t = ![q0.val, 0])

/-- What point `t` writes back is block `t` of the layer of the arrays the launch found. -/
theorem flushed_eq (c : Dev nD) (t : Fin cfg1.N) :
    (dat1 (F := Ideal) V c).flushed 5 t = ((cfg1.win 5).blk t).view.read (Elt Ideal)
      (denseRelu (V c main_v28) (V c main_v40) (V c main_v42) (V c main_v44) (rowOf (V c main_v47))) := by
  show (cfg1.win 5).cut (grid1.coords t) ((dat1 V c).after 5 t) = _
  rw [after1_5]
  unfold out1_5
  rw [View.canon_unit_zero zeroOff]
  simp only [View.ld_unit_zero (S := S5000x128) zeroOff, View.ld_unit_zero (S := S128x128) zeroOff,
    View.ld_unit_zero (S := S1x128) zeroOff]
  obtain ⟨ht, e00, e01, e10, e11, e20, e21, e30, e31, e40, e41, e50, e51⟩ := idx_facts t
  funext j
  obtain ⟨r, q, rfl⟩ : ∃ (r : Fin 5000) (q : Fin 128), j = ix2 r q := ⟨j 0, j 1, eq_ix2 j⟩
  have hr : r.val < 5000 := r.isLt
  have hq : q.val < 128 := q.isLt
  have hemb : ((cfg1.win 5).blk t).view.emb (ix2 r q) = ix2 (⟨t.val * 5000 + r.val, by omega⟩ : Fin 100000) q := by
    funext a; apply Fin.ext
    match a with
    | ⟨0, _⟩ => show win1_5.index t (0 : Fin 2) * 5000 + 1 * r.val = t.val * 5000 + r.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 r q)
    = denseRelu (V c main_v28) (V c main_v40) (V c main_v42) (V c main_v44) (rowOf (V c main_v47)) (((cfg1.win 5).blk t).view.emb (ix2 r q))
  rw [hemb]
  refine entry_eq (V c main_v28) (V c main_v40) (V c main_v42) (V c main_v44) (V c main_v47) _ _ _ _ _ _ r q ?_ ?_ ?_ ?_ ?_
  · intro k
    have hk : k.val < 128 := k.isLt
    show V c main_v28 (((cfg1.win 0).blk t).view.emb (ix2 r k)) = V c main_v28 (ix2 (⟨t.val * 5000 + r.val, by omega⟩ : Fin 100000) k)
    refine congrArg _ ?_
    funext a; apply Fin.ext
    match a with
    | ⟨0, _⟩ => show win1_0.index t (0 : Fin 2) * 5000 + 1 * r.val = t.val * 5000 + r.val; omega
    | ⟨1, _⟩ => show win1_0.index t (1 : Fin 2) * 128 + 1 * k.val = k.val; omega
  · intro k
    have hk : k.val < 128 := k.isLt
    show V c main_v40 (((cfg1.win 1).blk t).view.emb (ix2 r k)) = V c main_v40 (ix2 (⟨t.val * 5000 + r.val, by omega⟩ : Fin 100000) k)
    refine congrArg _ ?_
    funext a; apply Fin.ext
    match a with
    | ⟨0, _⟩ => show win1_1.index t (0 : Fin 2) * 5000 + 1 * r.val = t.val * 5000 + r.val; omega
    | ⟨1, _⟩ => show win1_1.index t (1 : Fin 2) * 128 + 1 * k.val = k.val; omega
  · intro k
    have hk : k.val < 128 := k.isLt
    show V c main_v42 (((cfg1.win 2).blk t).view.emb (ix2 k q)) = V c main_v42 (ix2 k q)
    refine congrArg _ ?_
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  · intro k
    have hk : k.val < 128 := k.isLt
    show V c main_v44 (((cfg1.win 3).blk t).view.emb (ix2 k q)) = V c main_v44 (ix2 k q)
    refine congrArg _ ?_
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  · show V c main_v47 (((cfg1.win 4).blk t).view.emb (ix2 (0 : Fin 1) q)) = V c main_v47 (ix2 (0 : Fin 1) q)
    refine congrArg _ ?_
    funext a; apply Fin.ext
    match a with
    | ⟨0, _⟩ => show win1_4.index t (0 : Fin 2) * 1 + 1 * 0 = 0; omega
    | ⟨1, _⟩ => show win1_4.index t (1 : Fin 2) * 128 + 1 * q.val = q.val; omega

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v48).slice (win1_5.rect t)).set ↔ _
  rw [View.set_slice_whole, Rect.mem_set_unit]
  exact Iff.rfl

/-- The twenty blocks tile the result array: row `i` is in block `i / 5000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the launch the result array is the layer of the arrays the launch found. -/
theorem final (c : Dev nD) :
    (dat1 (F := Ideal) V c).arrAt 5 cfg1.N
      = denseRelu (V c main_v28) (V c main_v40) (V c main_v42) (V c main_v44) (rowOf (V c main_v47)) :=
  (dat1 (F := Ideal) V c).arrAt_eq_of_cover 5 _ (fun t _ => flushed_eq V c t) (covered)

end Cert.KernelIdeal.Region1

end
-- ==== Proof.KReg2.lean ====
/-
  The third launch: from row blocks to the whole array.

  The launch walks the 100000 rows in 20 blocks of 5000.  At block `t` the kernel reads rows `5000 t … 5000 t + 4999`
  of the node features and of the neighbour features, the two whole weight matrices and the whole bias row, and
  writes the same rows of the result.  Entry `(r, q)` of the block it writes is the layer's value at row
  `5000 t + r`, column `q`, because a row of the layer depends only on the same row of its two row operands; the
  twenty blocks tile the array, so after the launch the result array is the layer of the arrays the launch found.
-/
import proofs.«123210_j4947802325460_1_alg».proof.Proof.Gen.KernelIdeal.Frame
import proofs.«123210_j4947802325460_1_alg».proof.Proof.KPay
import proofs.«123210_j4947802325460_1_alg».proof.Proof.Spec
import Idealize.ShloMosaic.Lib.Pipeline.Value
import Idealize.ShloMosaic.Lib.ValueIdx

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem zeroOff : (![0, 0] : Fin 2 → Nat) = fun _ => 0 := funext fun a => by fin_cases a <;> rfl

/-- One entry of a block against one entry of the layer: equal as soon as the block's two row operands hold row
    `p` of the arrays at their row `r` and its other three operands are the whole arrays. -/
theorem entry_eq (h n : FVec Ideal ⟨2, ![100000, 128]⟩ .f32) (ws wn : FVec Ideal ⟨2, ![128, 128]⟩ .f32)
    (b1 : FVec Ideal ⟨2, ![1, 128]⟩ .f32)
    (x0 x1 : Vec Ideal S5000x128 .f32) (x2 x3 : Vec Ideal S128x128 .f32) (x4 : Vec Ideal S1x128 .f32)
    (p : Fin 100000) (r : Fin 5000) (q : Fin 128)
    (h0 : ∀ k : Fin 128, x0 (ix2 r k) = h (ix2 p k)) (h1 : ∀ k : Fin 128, x1 (ix2 r k) = n (ix2 p k))
    (h2 : ∀ k : Fin 128, x2 (ix2 k q) = ws (ix2 k q)) (h3 : ∀ k : Fin 128, x3 (ix2 k q) = wn (ix2 k q))
    (h4 : x4 (ix2 (0 : Fin 1) q) = b1 (ix2 (0 : Fin 1) q)) :
    k2_pay1 (F := Ideal) x0 x1 x2 x3 x4 (ix2 r q) = dense h n ws wn (rowOf b1) (ix2 p q) := by
  rw [Cert.KernelIdeal.Body.pay2_apply, dense_ix2]
  unfold denseAt
  rw [rowOf_ix1, h4]
  simp only [h0, h1, h2, h3]

/-- The printed index maps over the twenty grid points: the two row operands and the result move one block down per
    point, the weights and the bias stay at block zero. -/
theorem idx_facts : ∀ t : Fin cfg2.N, t.val < 20
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row of the result is some point's. -/
theorem idx_onto : ∀ (q0 : Fin 20), ∃ t : Fin cfg2.N, win2_5.index t = ![q0.val, 0] :=
  (by decide +kernel : ∀ (q0 : Fin 20), ∃ t : Fin grid2.N, win2_5.index t = ![q0.val, 0])

/-- What point `t` writes back is block `t` of the layer of the arrays the launch found. -/
theorem flushed_eq (c : Dev nD) (t : Fin cfg2.N) :
    (dat2 (F := Ideal) V c).flushed 5 t = ((cfg2.win 5).blk t).view.read (Elt Ideal)
      (dense (V c main_v48) (V c main_v60) (V c main_v62) (V c main_v64) (rowOf (V c main_v67))) := by
  show (cfg2.win 5).cut (grid2.coords t) ((dat2 V c).after 5 t) = _
  rw [after2_5]
  unfold out2_5
  rw [View.canon_unit_zero zeroOff]
  simp only [View.ld_unit_zero (S := S5000x128) zeroOff, View.ld_unit_zero (S := S128x128) zeroOff,
    View.ld_unit_zero (S := S1x128) zeroOff]
  obtain ⟨ht, e00, e01, e10, e11, e20, e21, e30, e31, e40, e41, e50, e51⟩ := idx_facts t
  funext j
  obtain ⟨r, q, rfl⟩ : ∃ (r : Fin 5000) (q : Fin 128), j = ix2 r q := ⟨j 0, j 1, eq_ix2 j⟩
  have hr : r.val < 5000 := r.isLt
  have hq : q.val < 128 := q.isLt
  have hemb : ((cfg2.win 5).blk t).view.emb (ix2 r q) = ix2 (⟨t.val * 5000 + r.val, by omega⟩ : Fin 100000) q := by
    funext a; apply Fin.ext
    match a with
    | ⟨0, _⟩ => show win2_5.index t (0 : Fin 2) * 5000 + 1 * r.val = t.val * 5000 + r.val; omega
    | ⟨1, _⟩ => show win2_5.index t (1 : Fin 2) * 128 + 1 * q.val = q.val; omega
  show k2_pay1 (F := Ideal) (iblk2 V c 0 t) (iblk2 V c 1 t) (iblk2 V c 2 t) (iblk2 V c 3 t) (iblk2 V c 4 t) (ix2 r q)
    = dense (V c main_v48) (V c main_v60) (V c main_v62) (V c main_v64) (rowOf (V c main_v67)) (((cfg2.win 5).blk t).view.emb (ix2 r q))
  rw [hemb]
  refine entry_eq (V c main_v48) (V c main_v60) (V c main_v62) (V c main_v64) (V c main_v67) _ _ _ _ _ _ r q ?_ ?_ ?_ ?_ ?_
  · intro k
    have hk : k.val < 128 := k.isLt
    show V c main_v48 (((cfg2.win 0).blk t).view.emb (ix2 r k)) = V c main_v48 (ix2 (⟨t.val * 5000 + r.val, by omega⟩ : Fin 100000) k)
    refine congrArg _ ?_
    funext a; apply Fin.ext
    match a with
    | ⟨0, _⟩ => show win2_0.index t (0 : Fin 2) * 5000 + 1 * r.val = t.val * 5000 + r.val; omega
    | ⟨1, _⟩ => show win2_0.index t (1 : Fin 2) * 128 + 1 * k.val = k.val; omega
  · intro k
    have hk : k.val < 128 := k.isLt
    show V c main_v60 (((cfg2.win 1).blk t).view.emb (ix2 r k)) = V c main_v60 (ix2 (⟨t.val * 5000 + r.val, by omega⟩ : Fin 100000) k)
    refine congrArg _ ?_
    funext a; apply Fin.ext
    match a with
    | ⟨0, _⟩ => show win2_1.index t (0 : Fin 2) * 5000 + 1 * r.val = t.val * 5000 + r.val; omega
    | ⟨1, _⟩ => show win2_1.index t (1 : Fin 2) * 128 + 1 * k.val = k.val; omega
  · intro k
    have hk : k.val < 128 := k.isLt
    show V c main_v62 (((cfg2.win 2).blk t).view.emb (ix2 k q)) = V c main_v62 (ix2 k q)
    refine congrArg _ ?_
    funext a; apply Fin.ext
    match a with
    | ⟨0, _⟩ => show win2_2.index t (0 : Fin 2) * 128 + 1 * k.val = k.val; omega
    | ⟨1, _⟩ => show win2_2.index t (1 : Fin 2) * 128 + 1 * q.val = q.val; omega
  · intro k
    have hk : k.val < 128 := k.isLt
    show V c main_v64 (((cfg2.win 3).blk t).view.emb (ix2 k q)) = V c main_v64 (ix2 k q)
    refine congrArg _ ?_
    funext a; apply Fin.ext
    match a with
    | ⟨0, _⟩ => show win2_3.index t (0 : Fin 2) * 128 + 1 * k.val = k.val; omega
    | ⟨1, _⟩ => show win2_3.index t (1 : Fin 2) * 128 + 1 * q.val = q.val; omega
  · show V c main_v67 (((cfg2.win 4).blk t).view.emb (ix2 (0 : Fin 1) q)) = V c main_v67 (ix2 (0 : Fin 1) q)
    refine congrArg _ ?_
    funext a; apply Fin.ext
    match a with
    | ⟨0, _⟩ => show win2_4.index t (0 : Fin 2) * 1 + 1 * 0 = 0; omega
    | ⟨1, _⟩ => show win2_4.index t (1 : Fin 2) * 128 + 1 * q.val = q.val; omega

/-- An index of the result array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v68).slice (win2_5.rect t)).set ↔ _
  rw [View.set_slice_whole, Rect.mem_set_unit]
  exact Iff.rfl

/-- The twenty blocks tile the result array: row `i` is in block `i / 5000`. -/
theorem covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the launch the result array is the layer of the arrays the launch found. -/
theorem final (c : Dev nD) :
    (dat2 (F := Ideal) V c).arrAt 5 cfg2.N
      = dense (V c main_v48) (V c main_v60) (V c main_v62) (V c main_v64) (rowOf (V c main_v67)) :=
  (dat2 (F := Ideal) V c).arrAt_eq_of_cover 5 _ (fun t _ => flushed_eq V c t) (covered)

end Cert.KernelIdeal.Region2

end
-- ==== Proof.RefSpec.lean ====
/-
  The whole network as one function of its six arguments.

  The neighbour features of a node are the sum of the features of the nodes with an edge into it, scaled by one over
  the number of such edges (clamped from below at one): a gather of the source rows, a scatter-add into the target
  rows, and a product with the reciprocal in-degree stretched over the 128 features.  Both programs run exactly these
  host operations on their current features, so the aggregation is kept as one function `agg` and never opened.
  Layer `k` uses slice `k` of the two weight stacks and of the bias stack; the network is three layers, the first two
  clamped at zero, each fed the previous layer's features and their aggregation.
-/
import proofs.«123210_j4947802325460_1_alg».proof.ReferenceIdeal
import proofs.«123210_j4947802325460_1_alg».proof.Proof.Gen.ReferenceIdeal
import proofs.«123210_j4947802325460_1_alg».proof.Proof.Spec

noncomputable section

namespace Cert.Sage

open Idealize.ShloMosaic Cert.ReferenceIdeal Cert.ReferenceIdeal.Facts₀

/-- One over the in-degree clamped at one, as a column: the in-degree is a scatter-add of ones into zeros. -/
def invDegCol (dst : (⟨S640000, .i32⟩ : BufTy).Contents (Elt Ideal)) : FVec Ideal S100000x1 .f32 :=
  broadcastInDim S100000x1 ![0] bcast_S100000_S100000x1_0 (Host.divf (F := Ideal) (broadcastInDim S100000 ![] bcast_S_S100000 (constant S_ .f32 0x3F800000#32)) (maximumf (Host.scatterAdd scatter_S100000_S640000x1_S640000_n_0_0_1 (broadcastInDim S100000 ![] bcast_S_S100000 (constant S_ .f32 0x00000000#32)) (broadcastInDim S640000x1 ![0] bcast_S640000_S640000x1_0 dst) (broadcastInDim S640000 ![] bcast_S_S640000 (constant S_ .f32 0x3F800000#32))) (broadcastInDim S100000 ![] bcast_S_S100000 (constant S_ .f32 0x3F800000#32))))

/-- The neighbour features: the source rows gathered per edge (a negative source index counted from the end),
    scatter-added into the target rows, times the reciprocal in-degree of the row. -/
def agg (h : FVec Ideal S100000x128 .f32) (src dst : (⟨S640000, .i32⟩ : BufTy).Contents (Elt Ideal)) : FVec Ideal S100000x128 .f32 :=
  mulf (Host.scatterAdd scatter_S100000x128_S640000x1_S640000x128_1_0_0_1 (broadcastInDim S100000x128 ![] bcast_S_S100000x128 (constant S_ .f32 0x00000000#32)) (broadcastInDim S640000x1 ![0] bcast_S640000_S640000x1_0 dst) (Host.gather gather_S100000x128_S640000x1_S640000x128_1_0_n_n_0_1_1128 h (broadcastInDim S640000x1 ![0] bcast_S640000_S640000x1_0 (select (cmpi .slt src (broadcastInDim S640000 ![] bcast_S_S640000 (constantI S_ 32 0#32))) (addi src (broadcastInDim S640000 ![] bcast_S_S640000 (constantI S_ 32 100000#32))) src)))) (broadcastInDim S100000x128 ![0, 1] bcast_S100000x1_S100000x128_0_1 (invDegCol dst))

/-- Slice `k` of a stack of three 128 x 128 matrices. -/
def wMat (k : Nat) (hs : S3x128x128.Slices ![k, 0, 0] S1x128x128) (W : FVec Ideal S3x128x128 .f32) : FVec Ideal S128x128 .f32 :=
  shapeCast S128x128 (extractStridedSlice S1x128x128 ![k, 0, 0] W hs) shapeCasts_S1x128x128_S128x128

/-- Row `k` of a stack of three bias rows, as a vector. -/
def bVec (k : Nat) (hs : S3x128.Slices ![k, 0] S1x128) (b : FVec Ideal S3x128 .f32) : FVec Ideal S128 .f32 :=
  shapeCast S128 (extractStridedSlice S1x128 ![k, 0] b hs) shapeCasts_S1x128_S128

section
variable (h : FVec Ideal S100000x128 .f32) (src dst : (⟨S640000, .i32⟩ : BufTy).Contents (Elt Ideal))
  (W Wn : FVec Ideal S3x128x128 .f32) (b : FVec Ideal S3x128 .f32)

/-- The features after the first layer. -/
def hidden1 : FVec Ideal S100000x128 .f32 :=
  denseRelu h (agg h src dst) (wMat 0 slices_S3x128x128_S1x128x128_0_0_0 W) (wMat 0 slices_S3x128x128_S1x128x128_0_0_0 Wn)
    (bVec 0 slices_S3x128_S1x128_0_0 b)

/-- The features after the second layer. -/
def hidden2 : FVec Ideal S100000x128 .f32 :=
  denseRelu (hidden1 h src dst W Wn b) (agg (hidden1 h src dst W Wn b) src dst) (wMat 1 slices_S3x128x128_S1x128x128_1_0_0 W)
    (wMat 1 slices_S3x128x128_S1x128x128_1_0_0 Wn) (bVec 1 slices_S3x128_S1x128_1_0 b)

/-- The network's result. -/
def net : FVec Ideal S100000x128 .f32 :=
  dense (hidden2 h src dst W Wn b) (agg (hidden2 h src dst W Wn b) src dst) (wMat 2 slices_S3x128x128_S1x128x128_2_0_0 W)
    (wMat 2 slices_S3x128x128_S1x128x128_2_0_0 Wn) (bVec 2 slices_S3x128_S1x128_2_0 b)

end

end Cert.Sage

end
-- ==== Proof.KChain.lean ====
/-
  The kernel program computes the network.

  The program's buffers are followed from the launch memory through its six segments: a stretch of host operations
  that builds the reciprocal in-degree column, the first aggregation and the first layer's weight and bias slices;
  the first launch; a stretch that aggregates the first launch's result and slices the second layer's weights; the
  second launch; the same again; the third launch.  A host stretch leaves every buffer it does not write as it was
  and each buffer it writes at its operation's value of the operands; a launch leaves its result array at the layer
  function of its five operand arrays and every other buffer as it was.  So the features after each launch are the
  network's hidden features, and the last result is the network of the six arguments.
-/
import proofs.«123210_j4947802325460_1_alg».proof.Proof.Gen.KernelIdeal.Frame
import proofs.«123210_j4947802325460_1_alg».proof.Proof.KReg0
import proofs.«123210_j4947802325460_1_alg».proof.Proof.KReg1
import proofs.«123210_j4947802325460_1_alg».proof.Proof.KReg2
import proofs.«123210_j4947802325460_1_alg».proof.Proof.RefSpec
import Idealize.ShloMosaic.Lib.StableHlo.Run
import Idealize.ShloMosaic.Lib.ValueIdx
import Idealize.ShloMosaic.Lib.ValueLayout

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.Sage

variable (m : (ℓ : Loc nD τ sig) → Buf (Elt Ideal) ℓ) (ρ : Dev nD → PrngReg) (c : Dev nD)

/-! ## After the first host stretch -/

theorem W1_arg0 : W1 m ρ c (Proc.devRef .tc main_arg0) = (m ((c : Thread nD τ).loc main_arg0)) := by
  show StableHlo.after hostOps0 (W0 m ρ c) (Proc.devRef .tc main_arg0) = _
  dsimp only [hostOps0]
  after_results_simp

theorem W1_arg1 : W1 m ρ c (Proc.devRef .tc main_arg1) = (m ((c : Thread nD τ).loc main_arg1)) := by
  show StableHlo.after hostOps0 (W0 m ρ c) (Proc.devRef .tc main_arg1) = _
  dsimp only [hostOps0]
  after_results_simp

theorem W1_arg2 : W1 m ρ c (Proc.devRef .tc main_arg2) = (m ((c : Thread nD τ).loc main_arg2)) := by
  show StableHlo.after hostOps0 (W0 m ρ c) (Proc.devRef .tc main_arg2) = _
  dsimp only [hostOps0]
  after_results_simp

theorem W1_arg3 : W1 m ρ c (Proc.devRef .tc main_arg3) = (m ((c : Thread nD τ).loc main_arg3)) := by
  show StableHlo.after hostOps0 (W0 m ρ c) (Proc.devRef .tc main_arg3) = _
  dsimp only [hostOps0]
  after_results_simp

theorem W1_arg4 : W1 m ρ c (Proc.devRef .tc main_arg4) = (m ((c : Thread nD τ).loc main_arg4)) := by
  show StableHlo.after hostOps0 (W0 m ρ c) (Proc.devRef .tc main_arg4) = _
  dsimp only [hostOps0]
  after_results_simp

theorem W1_arg5 : W1 m ρ c (Proc.devRef .tc main_arg5) = (m ((c : Thread nD τ).loc main_arg5)) := by
  show StableHlo.after hostOps0 (W0 m ρ c) (Proc.devRef .tc main_arg5) = _
  dsimp only [hostOps0]
  after_results_simp

/-- The features entering layer 1 are the first argument. -/
theorem W1_h : W1 m ρ c (Proc.devRef .tc main_arg0) = (m ((c : Thread nD τ).loc main_arg0)) := W1_arg0 m ρ c

/-- The reciprocal in-degree column. -/
theorem W1_deg : W1 m ρ c (Proc.devRef .tc main_v8) = invDegCol (m ((c : Thread nD τ).loc main_arg2)) := by
  show StableHlo.after hostOps0 (W0 m ρ c) (Proc.devRef .tc main_v8) = _
  dsimp only [hostOps0]
  after_results_simp
  rfl

/-- The first aggregation. -/
theorem W1_agg : W1 m ρ c (Proc.devRef .tc main_v20) = agg (m ((c : Thread nD τ).loc main_arg0)) (m ((c : Thread nD τ).loc main_arg1)) (m ((c : Thread nD τ).loc main_arg2)) := by
  show StableHlo.after hostOps0 (W0 m ρ c) (Proc.devRef .tc main_v20) = _
  dsimp only [hostOps0]
  after_results_simp
  rfl

theorem W1_ws : W1 m ρ c (Proc.devRef .tc main_v22) = wMat 0 Cert.ReferenceIdeal.Facts₀.slices_S3x128x128_S1x128x128_0_0_0 (m ((c : Thread nD τ).loc main_arg3)) := by
  show StableHlo.after hostOps0 (W0 m ρ c) (Proc.devRef .tc main_v22) = _
  dsimp only [hostOps0]
  after_results_simp
  rfl

theorem W1_wn : W1 m ρ c (Proc.devRef .tc main_v24) = wMat 0 Cert.ReferenceIdeal.Facts₀.slices_S3x128x128_S1x128x128_0_0_0 (m ((c : Thread nD τ).loc main_arg4)) := by
  show StableHlo.after hostOps0 (W0 m ρ c) (Proc.devRef .tc main_v24) = _
  dsimp only [hostOps0]
  after_results_simp
  rfl

/-- The first bias row, kept as a 1 x 128 array, read as its row. -/
theorem W1_b : rowOf (W1 m ρ c (Proc.devRef .tc main_v27)) = bVec 0 Cert.ReferenceIdeal.Facts₀.slices_S3x128_S1x128_0_0 (m ((c : Thread nD τ).loc main_arg5)) := by
  have e : W1 m ρ c (Proc.devRef .tc main_v27) = shapeCast S1x128 (bVec 0 Cert.ReferenceIdeal.Facts₀.slices_S3x128_S1x128_0_0 (m ((c : Thread nD τ).loc main_arg5))) Cert.KernelIdeal.Facts₀.shapeCasts_S128_S1x128 := by
    show StableHlo.after hostOps0 (W0 m ρ c) (Proc.devRef .tc main_v27) = _
    dsimp only [hostOps0]
    after_results_simp
    rfl
  rw [e]
  funext j
  obtain ⟨q, rfl⟩ : ∃ q : Fin 128, j = ix1 q := ⟨j 0, eq_ix1 j⟩
  rw [rowOf_ix1, shapeCast_a_1a_apply]

/-! ## After the first launch -/

/-- After launch 1 its result array holds the layer of what the launch found. -/
theorem W2_h : W2 m ρ c (Proc.devRef .tc main_v28) = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((Cert.KernelIdeal.Region0.final (V1 m ρ) c).trans ?_)
  show denseRelu (W1 m ρ c (Proc.devRef .tc main_arg0)) (W1 m ρ c (Proc.devRef .tc main_v20)) (W1 m ρ c (Proc.devRef .tc main_v22)) (W1 m ρ c (Proc.devRef .tc main_v24)) (rowOf (W1 m ρ c (Proc.devRef .tc main_v27))) = _
  rw [W1_h, W1_agg, W1_ws, W1_wn, W1_b]
  rfl

theorem W2_arg1 : W2 m ρ c (Proc.devRef .tc main_arg1) = (m ((c : Thread nD τ).loc main_arg1)) :=
  (W2_of_ne m ρ c main_arg1 (by decide)).trans (W1_arg1 m ρ c)

theorem W2_arg2 : W2 m ρ c (Proc.devRef .tc main_arg2) = (m ((c : Thread nD τ).loc main_arg2)) :=
  (W2_of_ne m ρ c main_arg2 (by decide)).trans (W1_arg2 m ρ c)

theorem W2_arg3 : W2 m ρ c (Proc.devRef .tc main_arg3) = (m ((c : Thread nD τ).loc main_arg3)) :=
  (W2_of_ne m ρ c main_arg3 (by decide)).trans (W1_arg3 m ρ c)

theorem W2_arg4 : W2 m ρ c (Proc.devRef .tc main_arg4) = (m ((c : Thread nD τ).loc main_arg4)) :=
  (W2_of_ne m ρ c main_arg4 (by decide)).trans (W1_arg4 m ρ c)

theorem W2_arg5 : W2 m ρ c (Proc.devRef .tc main_arg5) = (m ((c : Thread nD τ).loc main_arg5)) :=
  (W2_of_ne m ρ c main_arg5 (by decide)).trans (W1_arg5 m ρ c)

theorem W2_deg : W2 m ρ c (Proc.devRef .tc main_v8) = invDegCol (m ((c : Thread nD τ).loc main_arg2)) :=
  (W2_of_ne m ρ c main_v8 (by decide)).trans (W1_deg m ρ c)

/-! ## After the second host stretch -/

/-- The features entering layer 2 are still in place after the host stretch. -/
theorem W3_h : W3 m ρ c (Proc.devRef .tc main_v28) = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v28) = _
  dsimp only [hostOps1]
  after_results_simp
  exact W2_h m ρ c

theorem W3_arg1 : W3 m ρ c (Proc.devRef .tc main_arg1) = (m ((c : Thread nD τ).loc main_arg1)) := by
  show StableHlo.after hostOps1 (W2 m ρ c) (Proc.devRef .tc main_arg1) = _
  dsimp only [hostOps1]
  after_results_simp
  exact W2_arg1 m ρ c

theorem W3_arg2 : W3 m ρ c (Proc.devRef .tc main_arg2) = (m ((c : Thread nD τ).loc main_arg2)) := by
  show StableHlo.after hostOps1 (W2 m ρ c) (Proc.devRef .tc main_arg2) = _
  dsimp only [hostOps1]
  after_results_simp
  exact W2_arg2 m ρ c

theorem W3_arg3 : W3 m ρ c (Proc.devRef .tc main_arg3) = (m ((c : Thread nD τ).loc main_arg3)) := by
  show StableHlo.after hostOps1 (W2 m ρ c) (Proc.devRef .tc main_arg3) = _
  dsimp only [hostOps1]
  after_results_simp
  exact W2_arg3 m ρ c

theorem W3_arg4 : W3 m ρ c (Proc.devRef .tc main_arg4) = (m ((c : Thread nD τ).loc main_arg4)) := by
  show StableHlo.after hostOps1 (W2 m ρ c) (Proc.devRef .tc main_arg4) = _
  dsimp only [hostOps1]
  after_results_simp
  exact W2_arg4 m ρ c

theorem W3_arg5 : W3 m ρ c (Proc.devRef .tc main_arg5) = (m ((c : Thread nD τ).loc main_arg5)) := by
  show StableHlo.after hostOps1 (W2 m ρ c) (Proc.devRef .tc main_arg5) = _
  dsimp only [hostOps1]
  after_results_simp
  exact W2_arg5 m ρ c

theorem W3_deg : W3 m ρ c (Proc.devRef .tc main_v8) = invDegCol (m ((c : Thread nD τ).loc main_arg2)) := by
  show StableHlo.after hostOps1 (W2 m ρ c) (Proc.devRef .tc main_v8) = _
  dsimp only [hostOps1]
  after_results_simp
  exact W2_deg m ρ c

/-- The host stretch aggregates the entering features. -/
theorem W3_agg : W3 m ρ c (Proc.devRef .tc main_v40) = agg (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  show StableHlo.after hostOps1 (W2 m ρ c) (Proc.devRef .tc main_v40) = _
  dsimp only [hostOps1]
  after_results_simp
  rw [W2_h, W2_arg1, W2_arg2, W2_deg]
  rfl

theorem W3_ws : W3 m ρ c (Proc.devRef .tc main_v42) = wMat 1 Cert.ReferenceIdeal.Facts₀.slices_S3x128x128_S1x128x128_1_0_0 (m ((c : Thread nD τ).loc main_arg3)) := by
  show StableHlo.after hostOps1 (W2 m ρ c) (Proc.devRef .tc main_v42) = _
  dsimp only [hostOps1]
  after_results_simp
  rw [W2_arg3]
  rfl

theorem W3_wn : W3 m ρ c (Proc.devRef .tc main_v44) = wMat 1 Cert.ReferenceIdeal.Facts₀.slices_S3x128x128_S1x128x128_1_0_0 (m ((c : Thread nD τ).loc main_arg4)) := by
  show StableHlo.after hostOps1 (W2 m ρ c) (Proc.devRef .tc main_v44) = _
  dsimp only [hostOps1]
  after_results_simp
  rw [W2_arg4]
  rfl

/-- The bias row of layer 2, kept as a 1 x 128 array, read as its row. -/
theorem W3_b : rowOf (W3 m ρ c (Proc.devRef .tc main_v47)) = bVec 1 Cert.ReferenceIdeal.Facts₀.slices_S3x128_S1x128_1_0 (m ((c : Thread nD τ).loc main_arg5)) := by
  have e : W3 m ρ c (Proc.devRef .tc main_v47) = shapeCast S1x128 (bVec 1 Cert.ReferenceIdeal.Facts₀.slices_S3x128_S1x128_1_0 (m ((c : Thread nD τ).loc main_arg5))) Cert.KernelIdeal.Facts₀.shapeCasts_S128_S1x128 := by
    show StableHlo.after hostOps1 (W2 m ρ c) (Proc.devRef .tc main_v47) = _
    dsimp only [hostOps1]
    after_results_simp
    rw [W2_arg5]
    rfl
  rw [e]
  funext j
  obtain ⟨q, rfl⟩ : ∃ q : Fin 128, j = ix1 q := ⟨j 0, eq_ix1 j⟩
  rw [rowOf_ix1, shapeCast_a_1a_apply]

/-! ## After the second launch -/

/-- After launch 2 its result array holds the layer of what the launch found. -/
theorem W4_h : W4 m ρ c (Proc.devRef .tc main_v48) = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 5).trans ((Cert.KernelIdeal.Region1.final (V3 m ρ) c).trans ?_)
  show denseRelu (W3 m ρ c (Proc.devRef .tc main_v28)) (W3 m ρ c (Proc.devRef .tc main_v40)) (W3 m ρ c (Proc.devRef .tc main_v42)) (W3 m ρ c (Proc.devRef .tc main_v44)) (rowOf (W3 m ρ c (Proc.devRef .tc main_v47))) = _
  rw [W3_h, W3_agg, W3_ws, W3_wn, W3_b]
  rfl

theorem W4_arg1 : W4 m ρ c (Proc.devRef .tc main_arg1) = (m ((c : Thread nD τ).loc main_arg1)) :=
  (W4_of_ne m ρ c main_arg1 (by decide)).trans (W3_arg1 m ρ c)

theorem W4_arg2 : W4 m ρ c (Proc.devRef .tc main_arg2) = (m ((c : Thread nD τ).loc main_arg2)) :=
  (W4_of_ne m ρ c main_arg2 (by decide)).trans (W3_arg2 m ρ c)

theorem W4_arg3 : W4 m ρ c (Proc.devRef .tc main_arg3) = (m ((c : Thread nD τ).loc main_arg3)) :=
  (W4_of_ne m ρ c main_arg3 (by decide)).trans (W3_arg3 m ρ c)

theorem W4_arg4 : W4 m ρ c (Proc.devRef .tc main_arg4) = (m ((c : Thread nD τ).loc main_arg4)) :=
  (W4_of_ne m ρ c main_arg4 (by decide)).trans (W3_arg4 m ρ c)

theorem W4_arg5 : W4 m ρ c (Proc.devRef .tc main_arg5) = (m ((c : Thread nD τ).loc main_arg5)) :=
  (W4_of_ne m ρ c main_arg5 (by decide)).trans (W3_arg5 m ρ c)

theorem W4_deg : W4 m ρ c (Proc.devRef .tc main_v8) = invDegCol (m ((c : Thread nD τ).loc main_arg2)) :=
  (W4_of_ne m ρ c main_v8 (by decide)).trans (W3_deg m ρ c)

/-! ## After the third host stretch -/

/-- The features entering layer 3 are still in place after the host stretch. -/
theorem W5_h : W5 m ρ c (Proc.devRef .tc main_v48) = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v48) = _
  dsimp only [hostOps2]
  after_results_simp
  exact W4_h m ρ c

theorem W5_arg1 : W5 m ρ c (Proc.devRef .tc main_arg1) = (m ((c : Thread nD τ).loc main_arg1)) := by
  show StableHlo.after hostOps2 (W4 m ρ c) (Proc.devRef .tc main_arg1) = _
  dsimp only [hostOps2]
  after_results_simp
  exact W4_arg1 m ρ c

theorem W5_arg2 : W5 m ρ c (Proc.devRef .tc main_arg2) = (m ((c : Thread nD τ).loc main_arg2)) := by
  show StableHlo.after hostOps2 (W4 m ρ c) (Proc.devRef .tc main_arg2) = _
  dsimp only [hostOps2]
  after_results_simp
  exact W4_arg2 m ρ c

theorem W5_arg3 : W5 m ρ c (Proc.devRef .tc main_arg3) = (m ((c : Thread nD τ).loc main_arg3)) := by
  show StableHlo.after hostOps2 (W4 m ρ c) (Proc.devRef .tc main_arg3) = _
  dsimp only [hostOps2]
  after_results_simp
  exact W4_arg3 m ρ c

theorem W5_arg4 : W5 m ρ c (Proc.devRef .tc main_arg4) = (m ((c : Thread nD τ).loc main_arg4)) := by
  show StableHlo.after hostOps2 (W4 m ρ c) (Proc.devRef .tc main_arg4) = _
  dsimp only [hostOps2]
  after_results_simp
  exact W4_arg4 m ρ c

theorem W5_arg5 : W5 m ρ c (Proc.devRef .tc main_arg5) = (m ((c : Thread nD τ).loc main_arg5)) := by
  show StableHlo.after hostOps2 (W4 m ρ c) (Proc.devRef .tc main_arg5) = _
  dsimp only [hostOps2]
  after_results_simp
  exact W4_arg5 m ρ c

theorem W5_deg : W5 m ρ c (Proc.devRef .tc main_v8) = invDegCol (m ((c : Thread nD τ).loc main_arg2)) := by
  show StableHlo.after hostOps2 (W4 m ρ c) (Proc.devRef .tc main_v8) = _
  dsimp only [hostOps2]
  after_results_simp
  exact W4_deg m ρ c

/-- The host stretch aggregates the entering features. -/
theorem W5_agg : W5 m ρ c (Proc.devRef .tc main_v60) = agg (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  show StableHlo.after hostOps2 (W4 m ρ c) (Proc.devRef .tc main_v60) = _
  dsimp only [hostOps2]
  after_results_simp
  rw [W4_h, W4_arg1, W4_arg2, W4_deg]
  rfl

theorem W5_ws : W5 m ρ c (Proc.devRef .tc main_v62) = wMat 2 Cert.ReferenceIdeal.Facts₀.slices_S3x128x128_S1x128x128_2_0_0 (m ((c : Thread nD τ).loc main_arg3)) := by
  show StableHlo.after hostOps2 (W4 m ρ c) (Proc.devRef .tc main_v62) = _
  dsimp only [hostOps2]
  after_results_simp
  rw [W4_arg3]
  rfl

theorem W5_wn : W5 m ρ c (Proc.devRef .tc main_v64) = wMat 2 Cert.ReferenceIdeal.Facts₀.slices_S3x128x128_S1x128x128_2_0_0 (m ((c : Thread nD τ).loc main_arg4)) := by
  show StableHlo.after hostOps2 (W4 m ρ c) (Proc.devRef .tc main_v64) = _
  dsimp only [hostOps2]
  after_results_simp
  rw [W4_arg4]
  rfl

/-- The bias row of layer 3, kept as a 1 x 128 array, read as its row. -/
theorem W5_b : rowOf (W5 m ρ c (Proc.devRef .tc main_v67)) = bVec 2 Cert.ReferenceIdeal.Facts₀.slices_S3x128_S1x128_2_0 (m ((c : Thread nD τ).loc main_arg5)) := by
  have e : W5 m ρ c (Proc.devRef .tc main_v67) = shapeCast S1x128 (bVec 2 Cert.ReferenceIdeal.Facts₀.slices_S3x128_S1x128_2_0 (m ((c : Thread nD τ).loc main_arg5))) Cert.KernelIdeal.Facts₀.shapeCasts_S128_S1x128 := by
    show StableHlo.after hostOps2 (W4 m ρ c) (Proc.devRef .tc main_v67) = _
    dsimp only [hostOps2]
    after_results_simp
    rw [W4_arg5]
    rfl
  rw [e]
  funext j
  obtain ⟨q, rfl⟩ : ∃ q : Fin 128, j = ix1 q := ⟨j 0, eq_ix1 j⟩
  rw [rowOf_ix1, shapeCast_a_1a_apply]

/-! ## After the third launch -/

/-- After launch 3 its result array holds the layer of what the launch found. -/
theorem W6_h : W6 m ρ c (Proc.devRef .tc main_v68) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 5).trans ((Cert.KernelIdeal.Region2.final (V5 m ρ) c).trans ?_)
  show dense (W5 m ρ c (Proc.devRef .tc main_v48)) (W5 m ρ c (Proc.devRef .tc main_v60)) (W5 m ρ c (Proc.devRef .tc main_v62)) (W5 m ρ c (Proc.devRef .tc main_v64)) (rowOf (W5 m ρ c (Proc.devRef .tc main_v67))) = _
  rw [W5_h, W5_agg, W5_ws, W5_wn, W5_b]
  rfl

end Cert.KernelIdeal.Chain

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«123210_j4947802325460_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.RefValue.lean ====
/-
  The reference program computes the network.

  Each of its three layers is two whole-array matrix products, added, plus the bias row stretched over all rows, and
  for the first two layers a maximum with zero.  Read at node `p`, feature `q`, a whole-array product is the sum
  over `k` of `lhs (p, k) * rhs (k, q)`, the stretched bias reads its entry `q`, and the stretched zero reads zero: the
  layer function of the specification.  The aggregation between the layers is the specification's own chain of host
  operations, so once the three layers are rewritten the two terms coincide.
-/
import proofs.«123210_j4947802325460_1_alg».proof.Proof.Gen.ReferenceIdeal.Run
import proofs.«123210_j4947802325460_1_alg».proof.Proof.RefSpec
import proofs.«123210_j4947802325460_1_alg».proof.Proof.LibHostDot
import proofs.«123210_j4947802325460_1_alg».proof.Proof.LibColumn
import Idealize.ShloMosaic.Lib.Pipeline.Value
import Idealize.ShloMosaic.Lib.ValueIdx

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Facts₀ Cert.Sage

/-- The whole-array product at `(p, q)`. -/
theorem wholeDot_apply (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) :=
  Cert.LibHostDot.hostDot_apply (R := 100000) (K := 128) (C := 128)
    dot_S100000x128_S128x128_S100000x128_1_0_0_1_n_n.wf none l r p q

/-- The bias vector set up as a row and stretched over all rows reads its entry `q`. -/
theorem wholeBias_apply (bv : FVec Ideal S128 .f32) (p : Fin 100000) (q : Fin 128) :
    broadcastInDim S100000x128 ![0, 1] bcast_S1x128_S100000x128_0_1 (broadcastInDim S1x128 ![1] bcast_S128_S1x128_1 bv) (ix2 p q)
      = bv (ix1 q) := by
  rw [Cert.LibColumn.bcastInDim_1b_ab_apply, Cert.LibColumn.bcastInDim_b_1b_apply]

/-- Two whole-array products, added, plus the stretched bias: the layer without the clamp. -/
theorem layer_eq (h n : FVec Ideal S100000x128 .f32) (ws wn : FVec Ideal S128x128 .f32) (bv : FVec Ideal S128 .f32) :
    addf (addf (Host.dotGeneral (F := Ideal) dot_S100000x128_S128x128_S100000x128_1_0_0_1_n_n none h ws)
        (Host.dotGeneral (F := Ideal) dot_S100000x128_S128x128_S100000x128_1_0_0_1_n_n none n wn))
      (broadcastInDim S100000x128 ![0, 1] bcast_S1x128_S100000x128_0_1 (broadcastInDim S1x128 ![1] bcast_S128_S1x128_1 bv))
      = dense h n ws wn bv := by
  funext i
  obtain ⟨p, q, rfl⟩ : ∃ (p : Fin 100000) (q : Fin 128), i = ix2 p q := ⟨i 0, i 1, eq_ix2 i⟩
  rw [addf_apply, addf_apply, wholeDot_apply, wholeDot_apply, wholeBias_apply, dense_ix2]
  rfl

/-- The maximum of a layer with the stretched zero is the clamped layer. -/
theorem relu_eq (h n : FVec Ideal S100000x128 .f32) (ws wn : FVec Ideal S128x128 .f32) (bv : FVec Ideal S128 .f32) :
    maximumf (dense h n ws wn bv) (broadcastInDim S100000x128 ![] bcast_S_S100000x128 (constant (F := Ideal) S_ .f32 0x00000000#32))
      = denseRelu h n ws wn bv := by
  funext i
  obtain ⟨p, q, rfl⟩ : ∃ (p : Fin 100000) (q : Fin 128), i = ix2 p q := ⟨i 0, i 1, eq_ix2 i⟩
  rw [maximumf_apply, Cert.LibColumn.bcastInDim_scalar_apply _ _ _ ix0, dense_ix2, denseRelu_ix2]
  rfl

/-- The reference's result term is the network of its six arguments. -/
theorem result_eq (m : (ℓ : Loc nD τ sig) → Buf (Elt Ideal) ℓ) (c : Dev nD) :
    Cert.ReferenceIdeal.Value.res_main_v84 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v84
  rw [layer_eq, layer_eq, layer_eq, relu_eq, relu_eq]
  rfl

end Cert.ReferenceIdeal.RefValue

end
-- ==== Proof.lean ====
/-
  A three-layer graph network with mean aggregation, computed two ways.

  Both programs take node features `h` (100000 x 128), edge sources and targets (640000 each), two stacks of three
  128 x 128 weight matrices and a stack of three bias rows.  Each layer aggregates, for every node, the features of
  the nodes with an edge into it, divides by the clamped in-degree, and returns
  `h W_self + neigh W_neigh + b`, the first two layers clamped at zero.  The reference forms the two products over the
  whole array on the host; the kernel program keeps the aggregation on the host and computes the dense part in three
  launches of a kernel that handles 5000 rows at a time, the operands narrowed to bfloat16 on the way into the
  products.  On the extended reals the narrowing is the identity and a product into a zero accumulator is the plain
  sum of products, and a row of a layer depends only on the same row of its operands, so every launch leaves the
  layer of the arrays it found; the host operations between the launches are the same on both sides and are carried as
  one function.  Hence both programs end with the same function `Cert.Sage.net` of the six arguments, which is the
  algebraic claim; no law used needs the inputs finite.  Nothing was rewritten by the idealization, so `preserves` is
  trivial, and the three frame claims are the generated frame runs.
-/
import proofs.«123210_j4947802325460_1_alg».proof.Defs
import proofs.«123210_j4947802325460_1_alg».proof.Proof.Gen.Kernel
import proofs.«123210_j4947802325460_1_alg».proof.Proof.Gen.Kernel.Skeleton
import proofs.«123210_j4947802325460_1_alg».proof.Proof.Gen.Kernel.Launch
import proofs.«123210_j4947802325460_1_alg».proof.Proof.Gen.Kernel.Points
import proofs.«123210_j4947802325460_1_alg».proof.Proof.Gen.Kernel.Frame
import proofs.«123210_j4947802325460_1_alg».proof.Proof.Gen.KernelIdeal
import proofs.«123210_j4947802325460_1_alg».proof.Proof.Gen.KernelIdeal.Skeleton
import proofs.«123210_j4947802325460_1_alg».proof.Proof.Gen.KernelIdeal.Launch
import proofs.«123210_j4947802325460_1_alg».proof.Proof.Gen.KernelIdeal.Points
import proofs.«123210_j4947802325460_1_alg».proof.Proof.Gen.KernelIdeal.Frame
import proofs.«123210_j4947802325460_1_alg».proof.Proof.Gen.ReferenceIdeal
import proofs.«123210_j4947802325460_1_alg».proof.Proof.Gen.ReferenceIdeal.Run
import proofs.«123210_j4947802325460_1_alg».proof.Proof.Gen.Pre_finite_inputs
import proofs.«123210_j4947802325460_1_alg».proof.Proof.KRun
import proofs.«123210_j4947802325460_1_alg».proof.Proof.KChain
import proofs.«123210_j4947802325460_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the network of the six arguments. -/
theorem algebraic : Cert.algebraic_KernelIdeal_ReferenceIdeal := by
  intro m ρ m' ρ' _ hagree
  refine ⟨fun c => Cert.Sage.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.W6_h m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq m' c, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
